-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x3x256x256 : Shape := ⟨5, ![32, 8, 3, 256, 256]⟩
abbrev S_ : Shape := ⟨0, ![]⟩

class Facts : Prop where
  bcast_S_S32x8x3x256x256 : S_.BroadcastsInDim S32x8x3x256x256 (![] : Fin 0 → Fin S32x8x3x256x256.rank)
  reducesTo_S32x8x3x256x256_S_d0_1_2_3_4 : S32x8x3x256x256.ReducesTo [0, 1, 2, 3, 4] S_
  h_S_ : 0 < S_.numel

variable [Facts]

def fn {F : FTy → Type} [FloatOps F] (main_arg0 : FVec F S32x8x3x256x256 .f32) : IVec S_ 1 :=
  let main_v0 : FVec F S32x8x3x256x256 .f32 := Host.absf main_arg0
  let main_cst : FVec F S_ .f32 := constant S_ .f32 0x7F800000#32
  let main_v1 : FVec F S32x8x3x256x256 .f32 := broadcastInDim S32x8x3x256x256 ![] bcast_S_S32x8x3x256x256 main_cst
  let main_v2 : IVec S32x8x3x256x256 1 := cmpf .olt main_v0 main_v1
  let main_c : IVec S_ 1 := constantI S_ 1 1#1
  let main_v3 : IVec S_ 1 := (fun x v => Host.reduce IntOp.andi x v reducesTo_S32x8x3x256x256_S_d0_1_2_3_4 h_S_) main_v2 main_c
  main_v3
-- ==== Kernel.lean ====
abbrev S32x8x3x256x256 : Shape := ⟨5, ![32, 8, 3, 256, 256]⟩
abbrev S768x256x256 : Shape := ⟨3, ![768, 256, 256]⟩
abbrev S1x1 : Shape := ⟨2, ![1, 1]⟩
abbrev S16x256x256 : Shape := ⟨3, ![16, 256, 256]⟩
abbrev S16x256x255 : Shape := ⟨3, ![16, 256, 255]⟩
abbrev S16x255x256 : Shape := ⟨3, ![16, 255, 256]⟩
abbrev S16x256 : Shape := ⟨2, ![16, 256]⟩
abbrev S16x256x1 : Shape := ⟨3, ![16, 256, 1]⟩
abbrev S16x1 : Shape := ⟨2, ![16, 1]⟩
abbrev S16x1x1 : Shape := ⟨3, ![16, 1, 1]⟩
abbrev S16x255 : Shape := ⟨2, ![16, 255]⟩
abbrev S16x255x1 : Shape := ⟨3, ![16, 255, 1]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S32x8x3x256x256, .f32⟩
  | .hbm, ⟨1, _⟩ => ⟨S768x256x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S16x256x256, .f32⟩
  | .local _ .vmem, ⟨1, _⟩ => ⟨S16x256x256, .f32⟩
  | .local _ .vmem, ⟨2, _⟩ => ⟨S1x1, .f32⟩
  | _, _ => ⟨S32x8x3x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S32x8x3x256x256_S768x256x256 : S32x8x3x256x256.ShapeCasts S768x256x256
  inb_S1x1_S1x1_0_0 : ∀ a, (![0, 0] : Fin 2 → Nat) a + S1x1.size a ≤ S1x1.size a
  h_S1x1 : 0 < S1x1.numel
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  slices_S16x256x256_o0_0_1_S16x256x255 : S16x256x256.Slices ![0, 0, 1] S16x256x255
  slices_S16x256x256_o0_0_0_S16x256x255 : S16x256x256.Slices ![0, 0, 0] S16x256x255
  slices_S16x256x256_o0_1_0_S16x255x256 : S16x256x256.Slices ![0, 1, 0] S16x255x256
  slices_S16x256x256_o0_0_0_S16x255x256 : S16x256x256.Slices ![0, 0, 0] S16x255x256
  reduces_S16x256x255_S16x256 : S16x256x255.Reduces [2] S16x256
  shapeCasts_S16x256_S16x256x1 : S16x256.ShapeCasts S16x256x1
  reduces_S16x256x1_S16x1 : S16x256x1.Reduces [1] S16x1
  shapeCasts_S16x1_S16x1x1 : S16x1.ShapeCasts S16x1x1
  reduces_S16x1x1_S1x1 : S16x1x1.Reduces [0] S1x1
  reduces_S16x255x256_S16x255 : S16x255x256.Reduces [2] S16x255
  shapeCasts_S16x255_S16x255x1 : S16x255.ShapeCasts S16x255x1
  reduces_S16x255x1_S16x1 : S16x255x1.Reduces [1] S16x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S768x256x256.size a
  hwx0_0 : ∀ i : grid0.Coords, EltTy.bits .f32 = 32 ∨ (Rect.block (s := S768x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x8x3x256x256 : Shape := ⟨5, ![32, 8, 3, 256, 256]⟩
abbrev S32x8x3x256x255 : Shape := ⟨5, ![32, 8, 3, 256, 255]⟩
abbrev S_ : Shape := ⟨0, ![]⟩
abbrev S32x8x3x255x256 : Shape := ⟨5, ![32, 8, 3, 255, 256]⟩

abbrev nBuf : Space → Nat
  | .hbm => 22
  | .vmem => 0
  | .smem => 0
  | _ => 0

abbrev bufTy : (tb : Table) → Fin (tcTables nBuf tb) → BufTy
  | .hbm, ⟨0, _⟩ => ⟨S32x8x3x256x256, .f32⟩
  | .hbm, ⟨1, _⟩ => ⟨S32x8x3x256x255, .f32⟩
  | .hbm, ⟨2, _⟩ => ⟨S32x8x3x256x255, .f32⟩
  | .hbm, ⟨3, _⟩ => ⟨S32x8x3x256x255, .f32⟩
  | .hbm, ⟨4, _⟩ => ⟨S_, .f32⟩
  | .hbm, ⟨5, _⟩ => ⟨S32x8x3x256x255, .f32⟩
  | .hbm, ⟨6, _⟩ => ⟨S32x8x3x256x255, .f32⟩
  | .hbm, ⟨7, _⟩ => ⟨S32x8x3x255x256, .f32⟩
  | .hbm, ⟨8, _⟩ => ⟨S32x8x3x255x256, .f32⟩
  | .hbm, ⟨9, _⟩ => ⟨S32x8x3x255x256, .f32⟩
  | .hbm, ⟨10, _⟩ => ⟨S_, .f32⟩
  | .hbm, ⟨11, _⟩ => ⟨S32x8x3x255x256, .f32⟩
  | .hbm, ⟨12, _⟩ => ⟨S32x8x3x255x256, .f32⟩
  | .hbm, ⟨13, _⟩ => ⟨S32x8x3x256x255, .f32⟩
  | .hbm, ⟨14, _⟩ => ⟨S_, .f32⟩
  | .hbm, ⟨15, _⟩ => ⟨S_, .f32⟩
  | .hbm, ⟨16, _⟩ => ⟨S32x8x3x255x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S32x8x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S32x8x3x256x256_S32x8x3x256x255_0_0_0_0_1 : S32x8x3x256x256.Slices ![0, 0, 0, 0, 1] S32x8x3x256x255
  slices_S32x8x3x256x256_S32x8x3x256x255_0_0_0_0_0 : S32x8x3x256x256.Slices ![0, 0, 0, 0, 0] S32x8x3x256x255
  bcast_S_S32x8x3x256x255 : S_.BroadcastsInDim S32x8x3x256x255 (![] : Fin 0 → Fin S32x8x3x256x255.rank)
  slices_S32x8x3x256x256_S32x8x3x255x256_0_0_0_1_0 : S32x8x3x256x256.Slices ![0, 0, 0, 1, 0] S32x8x3x255x256
  slices_S32x8x3x256x256_S32x8x3x255x256_0_0_0_0_0 : S32x8x3x256x256.Slices ![0, 0, 0, 0, 0] S32x8x3x255x256
  bcast_S_S32x8x3x255x256 : S_.BroadcastsInDim S32x8x3x255x256 (![] : Fin 0 → Fin S32x8x3x255x256.rank)
  reducesTo_S32x8x3x256x255_S_d0_1_2_3_4 : S32x8x3x256x255.ReducesTo [0, 1, 2, 3, 4] S_
  h_S_ : 0 < S_.numel
  reducesTo_S32x8x3x255x256_S_d0_1_2_3_4 : S32x8x3x255x256.ReducesTo [0, 1, 2, 3, 4] S_

variable [Facts₀]

class Facts : Prop extends Facts₀ where

variable [Facts]
-- ==== Proof.TotalVariation.lean ====
/-
  Total variation of a stack of images, on the extended reals.

  For an array `x` of `L` images of 256 × 256 entries and a constant `ε`, the total variation is the sum over every
  image, row and pair of horizontally adjacent entries of `|x[l, h, w + 1] - x[l, h, w] + ε|`, plus the sum over every
  image, column and pair of vertically adjacent entries of `|x[l, h + 1, w] - x[l, h, w] + ε|`.

  The law proved here: cutting a stack of 768 images into 48 consecutive groups of 16, the total variations of the
  groups add up to the total variation of the stack. Only commutativity and associativity of addition are used, so
  the law holds at the infinities too; nothing is assumed finite.
-/
import Idealize.ShloMosaic.PureOps.Ideal
import Idealize.ShloMosaic.Lib.ValueIdx

noncomputable section

open scoped BigOperators

namespace Cert.TV

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The absolute value on the extended reals. -/
def eabs (a : EReal) : EReal := max a (-a)

/-- The entry right of `(l, h, w)` minus the entry itself, plus `ε`, in absolute value. -/
def dLast {L : Nat} (ε : EReal) (x : (⟨3, ![L, 256, 256]⟩ : Shape).Idx → EReal) (l : Fin L) (h : Fin 256) (w : Fin 255) : EReal :=
  eabs (x (ix3 l h ⟨w.val + 1, by omega⟩) - x (ix3 l h ⟨w.val, by omega⟩) + ε)

/-- The entry below `(l, h, w)` minus the entry itself, plus `ε`, in absolute value. -/
def dMid {L : Nat} (ε : EReal) (x : (⟨3, ![L, 256, 256]⟩ : Shape).Idx → EReal) (l : Fin L) (h : Fin 255) (w : Fin 256) : EReal :=
  eabs (x (ix3 l ⟨h.val + 1, by omega⟩ w) - x (ix3 l ⟨h.val, by omega⟩ w) + ε)

/-- The total variation of a stack of `L` images: horizontal differences plus vertical differences. -/
def tv {L : Nat} (ε : EReal) (x : (⟨3, ![L, 256, 256]⟩ : Shape).Idx → EReal) : EReal :=
  (∑ l : Fin L, ∑ h : Fin 256, ∑ w : Fin 255, dLast ε x l h w) + (∑ l : Fin L, ∑ h : Fin 255, ∑ w : Fin 256, dMid ε x l h w)

/-- Images `16 t … 16 t + 15` of a stack of 768. -/
def tile (x : (⟨3, ![768, 256, 256]⟩ : Shape).Idx → EReal) (t : Fin 48) : (⟨3, ![16, 256, 256]⟩ : Shape).Idx → EReal :=
  fun j => x (ix3 ⟨16 * t.val + (j 0).val, by have := t.isLt; have : (j 0).val < 16 := (j 0).isLt; omega⟩ (j 1) (j 2))

/-- A sum over 768 images is the sum over the 48 groups of the sums inside a group. -/
theorem sum_groups {M : Type*} [AddCommMonoid M] (f : Fin 768 → M) :
    ∑ t : Fin 48, ∑ b : Fin 16, f ⟨16 * t.val + b.val, by have := t.isLt; have := b.isLt; omega⟩ = ∑ l : Fin 768, f l := by
  rw [← Equiv.sum_comp (finProdFinEquiv (m := 48) (n := 16)) f, Fintype.sum_prod_type]
  refine Finset.sum_congr rfl fun t _ => Finset.sum_congr rfl fun b _ => congrArg f (Fin.ext ?_)
  show 16 * t.val + b.val = b.val + 16 * t.val
  omega

/-- The groups' total variations add up to the stack's. -/
theorem sum_tv_tile (ε : EReal) (x : (⟨3, ![768, 256, 256]⟩ : Shape).Idx → EReal) :
    ∑ t : Fin 48, tv ε (tile x t) = tv ε x := by
  unfold tv
  rw [Finset.sum_add_distrib]
  congr 1
  · exact sum_groups fun l => ∑ h : Fin 256, ∑ w : Fin 255, dLast ε x l h w
  · exact sum_groups fun l => ∑ h : Fin 255, ∑ w : Fin 256, dMid ε x l h w

/-- The running total after groups `0 … n`: zero, then each group's total variation added in turn. -/
def running (ε : EReal) (x : (⟨3, ![768, 256, 256]⟩ : Shape).Idx → EReal) : (n : Nat) → n < 48 → EReal
  | 0, h => 0 + tv ε (tile x ⟨0, h⟩)
  | n + 1, h => running ε x n (Nat.lt_of_succ_lt h) + tv ε (tile x ⟨n + 1, h⟩)

/-- The running total is the sum over the groups so far. -/
theorem running_eq_sum (ε : EReal) (x : (⟨3, ![768, 256, 256]⟩ : Shape).Idx → EReal) :
    ∀ (n : Nat) (h : n < 48), running ε x n h = ∑ s : Fin (n + 1), tv ε (tile x ⟨s.val, by have := s.isLt; omega⟩)
  | 0, h => by
    rw [running, zero_add, Fin.sum_univ_one]
    rfl
  | n + 1, h => by
    rw [running, running_eq_sum ε x n (Nat.lt_of_succ_lt h), Fin.sum_univ_castSucc (n := n + 1)]
    rfl

/-- After the last group the running total is the stack's total variation. -/
theorem running_last (ε : EReal) (x : (⟨3, ![768, 256, 256]⟩ : Shape).Idx → EReal) :
    running ε x 47 (by omega) = tv ε x := by
  rw [running_eq_sum, ← sum_tv_tile]

end Cert.TV

end
-- ==== Proof.StepArithmetic.lean ====
/-
  The kernel body's arithmetic, read at the ideal instance.

  One grid step loads a group of 16 images `x` and the running total `acc` (a 1 × 1 block) and stores
  `acc + (sh + sw)`, where `sh` sums `|x[b, h, w + 1] - x[b, h, w] + ε|` over the group by three successive one-axis
  sums (the last axis, then the rows, then the images, a unit axis put back after each), and `sw` does the same for
  `|x[b, h + 1, w] - x[b, h, w] + ε|`. On the extended reals each one-axis sum is a finite sum over that coordinate,
  so the stored value is `acc` plus the group's total variation.
-/
import proofs.«112453_j53498112639571_2_alg».proof.Proof.Gen.KernelIdeal.Skeleton
import proofs.«112453_j53498112639571_2_alg».proof.Proof.TotalVariation
import Idealize.ShloMosaic.PureOps.Ideal.Laws
import Idealize.ShloMosaic.Lib.Pipeline.Value
import Idealize.ShloMosaic.Lib.ValueIdx

noncomputable section

open scoped BigOperators

namespace Cert.KernelIdeal.Pay

open Cert.KernelIdeal Cert.KernelIdeal.Gen Idealize.ShloMosaic Idealize.ShloMosaic.ValueIdx Cert.TV

/-- The constant added to every difference. -/
abbrev eps : EReal := Ideal.ofBits .f32 0x358637BD#32

/-- Three successive one-axis sums of a [16, H, W] vector — over the last axis, then (a unit axis put back) over the
    rows, then (a unit axis put back) over the images — leave, at the one index of the 1 × 1 result, the triple sum. -/
theorem sum3 {H W : Nat} (u : FVec Ideal ⟨3, ![16, H, W]⟩ .f32)
    (h2 : (⟨3, ![16, H, W]⟩ : Shape).Reduces [2] ⟨2, ![16, H]⟩)
    (c2 : (⟨2, ![16, H]⟩ : Shape).ShapeCasts ⟨3, ![16, H, 1]⟩)
    (h1 : (⟨3, ![16, H, 1]⟩ : Shape).Reduces [1] ⟨2, ![16, 1]⟩)
    (c1 : (⟨2, ![16, 1]⟩ : Shape).ShapeCasts ⟨3, ![16, 1, 1]⟩)
    (h0 : (⟨3, ![16, 1, 1]⟩ : Shape).Reduces [0] ⟨2, ![1, 1]⟩)
    (hφ : FKind.Formats .f32) (hacc : (0x00000000#32 : BitVec 32) = FKind.add.neutral .f32 hφ)
    (j : (⟨2, ![1, 1]⟩ : Shape).Idx) :
    multiReduction .add [0] ⟨2, ![1, 1]⟩
        (shapeCast ⟨3, ![16, 1, 1]⟩
          (multiReduction .add [1] ⟨2, ![16, 1]⟩
            (shapeCast ⟨3, ![16, H, 1]⟩ (multiReduction .add [2] ⟨2, ![16, H]⟩ u 0x00000000#32 h2 hφ hacc) c2)
            0x00000000#32 h1 hφ hacc) c1)
        0x00000000#32 h0 hφ hacc j
      = ∑ b : Fin 16, ∑ h : Fin H, ∑ w : Fin W, u (ix3 b h w) := by
  have hj0 : (j 0).val = 0 := Nat.lt_one_iff.mp (j 0).isLt
  have hj1 : (j 1).val = 0 := Nat.lt_one_iff.mp (j 1).isLt
  rw [Ideal.multiReduction_add_single]
  refine Finset.sum_congr rfl fun b _ => ?_
  rw [shapeCast_apply _ c1 (h0.lift j b) (ix2 b (0 : Fin 1)) (by
    rw [Shape.rowMajor_val_two, Shape.rowMajor_val_three]
    show b.val * 1 + 0 = (b.val * 1 + (j 0).val) * 1 + (j 1).val
    omega)]
  rw [Ideal.multiReduction_add_single]
  refine Finset.sum_congr rfl fun h _ => ?_
  rw [shapeCast_apply _ c2 (h1.lift (ix2 b (0 : Fin 1)) h) (ix2 b h) (by
    rw [Shape.rowMajor_val_two, Shape.rowMajor_val_three]
    show b.val * H + h.val = (b.val * H + h.val) * 1 + 0
    omega)]
  rw [Ideal.multiReduction_add_single]
  refine Finset.sum_congr rfl fun w _ => congrArg u ?_
  funext a
  match a with
  | ⟨0, _⟩ => rfl
  | ⟨1, _⟩ => rfl
  | ⟨2, _⟩ => rfl

/-- The horizontal difference term, as the body computes it from two slices of the group, is the specification's. -/
theorem dLast_eq (v3 : FVec Ideal S16x256x256 .f32)
    (s1 : S16x256x256.Slices ![0, 0, 1] S16x256x255) (s0 : S16x256x256.Slices ![0, 0, 0] S16x256x255)
    (b : Fin 16) (h : Fin 256) (w : Fin 255) :
    absf (addf (subf (extractStridedSlice S16x256x255 ![0, 0, 1] v3 s1) (extractStridedSlice S16x256x255 ![0, 0, 0] v3 s0))
        (broadcast S16x256x255 (Scalar.ofBits .f32 0x358637BD#32))) (ix3 b h w)
      = dLast eps v3 b h w := by
  have e1 := extractStridedSlice_apply ![0, 0, 1] v3 s1 (ix3 b h w) (ix3 b h ⟨w.val + 1, by omega⟩) (fun a => match a with
    | ⟨0, _⟩ => by show b.val = 0 + b.val; omega
    | ⟨1, _⟩ => by show h.val = 0 + h.val; omega
    | ⟨2, _⟩ => by show w.val + 1 = 1 + w.val; omega)
  have e0 := extractStridedSlice_apply ![0, 0, 0] v3 s0 (ix3 b h w) (ix3 b h ⟨w.val, by omega⟩) (fun a => match a with
    | ⟨0, _⟩ => by show b.val = 0 + b.val; omega
    | ⟨1, _⟩ => by show h.val = 0 + h.val; omega
    | ⟨2, _⟩ => by show w.val = 0 + w.val; omega)
  unfold dLast eabs
  rw [← e1, ← e0]
  rfl

/-- The vertical difference term likewise. -/
theorem dMid_eq (v3 : FVec Ideal S16x256x256 .f32)
    (s1 : S16x256x256.Slices ![0, 1, 0] S16x255x256) (s0 : S16x256x256.Slices ![0, 0, 0] S16x255x256)
    (b : Fin 16) (h : Fin 255) (w : Fin 256) :
    absf (addf (subf (extractStridedSlice S16x255x256 ![0, 1, 0] v3 s1) (extractStridedSlice S16x255x256 ![0, 0, 0] v3 s0))
        (broadcast S16x255x256 (Scalar.ofBits .f32 0x358637BD#32))) (ix3 b h w)
      = dMid eps v3 b h w := by
  have e1 := extractStridedSlice_apply ![0, 1, 0] v3 s1 (ix3 b h w) (ix3 b ⟨h.val + 1, by omega⟩ w) (fun a => match a with
    | ⟨0, _⟩ => by show b.val = 0 + b.val; omega
    | ⟨1, _⟩ => by show h.val + 1 = 1 + h.val; omega
    | ⟨2, _⟩ => by show w.val = 0 + w.val; omega)
  have e0 := extractStridedSlice_apply ![0, 0, 0] v3 s0 (ix3 b h w) (ix3 b ⟨h.val, by omega⟩ w) (fun a => match a with
    | ⟨0, _⟩ => by show b.val = 0 + b.val; omega
    | ⟨1, _⟩ => by show h.val = 0 + h.val; omega
    | ⟨2, _⟩ => by show w.val = 0 + w.val; omega)
  unfold dMid eabs
  rw [← e1, ← e0]
  rfl

/-- What one grid step stores: the running total it loaded plus the group's total variation. -/
theorem pay2_apply (v3 : Vec Ideal S16x256x256 .f32) (v27 : Vec Ideal S1x1 .f32) (j : S1x1.Idx) :
    k0_pay2 (F := Ideal) v3 v27 j = v27 j + tv eps v3 := by
  unfold k0_pay2
  simp only [shapeCast_self]
  rw [addf_apply, addf_apply]
  unfold tv
  refine congrArg (v27 j + ·) (congrArg₂ (· + ·)
    ((sum3 (H := 256) (W := 255) _ _ _ _ _ _ _ _ j).trans ?_) ((sum3 (H := 255) (W := 256) _ _ _ _ _ _ _ _ j).trans ?_))
  · exact Finset.sum_congr rfl fun b _ => Finset.sum_congr rfl fun h _ => Finset.sum_congr rfl fun w _ => dLast_eq v3 _ _ b h w
  · exact Finset.sum_congr rfl fun b _ => Finset.sum_congr rfl fun h _ => Finset.sum_congr rfl fun w _ => dMid_eq v3 _ _ b h w

/-- What the first grid step stores before anything else: zero. -/
theorem pay1_apply (j : S1x1.Idx) : k0_pay1 (F := Ideal) j = 0 := by
  unfold k0_pay1
  show Ideal.ofBits .f32 0x00000000#32 = 0
  exact Ideal.ofBits_zero_f32

end Cert.KernelIdeal.Pay

end
-- ==== Proof.StepCases.lean ====
/-
  What the accumulator block holds after each grid step.

  The first step clears the 1 × 1 block, reads the zero back and stores zero plus the first group's term; every later
  step reads what the step before left and stores that plus its own group's term. So after step `n` the block holds
  the running total of the groups `0 … n`.
-/
import proofs.«112453_j53498112639571_2_alg».proof.Proof.Gen.KernelIdeal.Frame
import proofs.«112453_j53498112639571_2_alg».proof.Proof.StepArithmetic
import Idealize.ShloMosaic.Lib.Pipeline.Value
import Idealize.ShloMosaic.Lib.Tactic

noncomputable section

open scoped BigOperators

namespace Cert.KernelIdeal.Steps

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later step leaves, in the block holding `xo`, the body's stored value of the group `x` and `xo`. -/
theorem out_B (c : Dev nD) (i : grid0.Coords) (a1 : Memref sig .tc .vmem S16x256x256 .f32) (h1 : a1.IsWhole)
    (a2 : Memref sig .tc .vmem S1x1 .f32) (h2 : a2.IsWhole) (hc : ¬cond0_0 i) (x : Vec F S16x256x256 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz2]
  simp only [View.readAt_eq_ld, h1.read_unread, h2.read_unread, View.ld_unit_zero (S := S16x256x256) hz3,
    View.ld_unit_zero (S := S1x1) hz2]

/-- The first step leaves the body's stored value of the group `x` and the zero block. -/
theorem out_A (c : Dev nD) (i : grid0.Coords) (a1 : Memref sig .tc .vmem S16x256x256 .f32) (h1 : a1.IsWhole)
    (a2 : Memref sig .tc .vmem S1x1 .f32) (h2 : a2.IsWhole) (hc : cond0_0 i) (x : Vec F S16x256x256 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S16x256x256) hz3]

end Cert.KernelIdeal.Steps

end
-- ==== Proof.KernelTotal.lean ====
/-
  The idealized kernel's result as one function of its argument.

  The argument is re-laid as a stack of 768 images; grid step `t` loads images `16 t … 16 t + 15`; the accumulator
  block after step `n` holds the running total of the groups' total variations; the last step's block is written back
  as the 1 × 1 array, which the host then reads as a scalar and divides by the number of entries.
-/
import proofs.«112453_j53498112639571_2_alg».proof.Proof.Gen.KernelIdeal.Frame
import proofs.«112453_j53498112639571_2_alg».proof.Proof.StepCases
import Idealize.ShloMosaic.Lib.Pipeline.Value
import Idealize.ShloMosaic.Lib.StableHlo.Run
import Idealize.ShloMosaic.Lib.Tactic

noncomputable section

open scoped BigOperators

namespace Cert.KernelIdeal.Total

open Cert.KernelIdeal Cert.KernelIdeal.Gen Idealize.ShloMosaic Idealize.ShloMosaic.TcCoe Idealize.SL.Sem
open Idealize.ShloMosaic.Pipeline (Dat)
open Idealize.ShloMosaic.ValueIdx Cert.TV Cert.KernelIdeal.Pay Cert.KernelIdeal.Steps

variable (m : (ℓ : Loc nD τ sig) → Buf (Elt Ideal) ℓ) (ρ : Dev nD → PrngReg)

/-- The stack of 768 images the region finds. -/
abbrev stack (c : Dev nD) : (⟨3, ![768, 256, 256]⟩ : Shape).Idx → EReal := V m c main_v0

/-- It is the argument, re-laid in row-major order. -/
theorem stack_eq (c : Dev nD) :
    stack m c = shapeCast S768x256x256 (m ((c : Thread nD τ).loc main_arg0)) shapeCasts_S32x8x3x256x256_S768x256x256 := by
  show StableHlo.after hostOps0 (fun b => m (c, b)) (Proc.devRef .tc main_v0) = _
  after_results
  rfl

/-- The block's row `b` at step `t` is the stack's row `16 t + b`. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Step `t` loads the group `t` of the stack. -/
theorem iblk_eq_tile (c : Dev nD) (t : Fin cfg0.N) :
    (iblk m c 0 t : Vec Ideal S16x256x256 .f32) = tile (stack m c) ⟨t.val, lt_of_lt_of_eq t.isLt N_0⟩ := by
  funext j
  unfold iblk tile
  rw [View.read_apply]
  show V m c main_v0 _ = V m c main_v0 _
  congr 1
  funext a
  apply Fin.ext
  have hi := index0 t
  match a with
  | ⟨0, _⟩ => show win0_0.index t 0 * 16 + 1 * (j 0).val = 16 * t.val + (j 0).val; rw [hi.1]; omega
  | ⟨1, _⟩ => show win0_0.index t 1 * 256 + 1 * (j 1).val = (j 1).val; rw [hi.2.1]; omega
  | ⟨2, _⟩ => show win0_0.index t 2 * 256 + 1 * (j 2).val = (j 2).val; rw [hi.2.2]; omega

/-- After step `n` every entry of the accumulator block is the running total of the groups `0 … n`. -/
theorem outsAt_eq (c : Dev nD) : ∀ (n : ℕ) (h : n < cfg0.N) (j : S1x1.Idx),
    outsAt0 (F := Ideal) m c n h j = running eps (stack m c) n (lt_of_lt_of_eq h N_0)
  | 0, h, j => by
    refine (congrFun ((outsAt0_A m c ⟨0, h⟩ rfl).trans
      (out_A (F := Ideal) c (grid0.coords ⟨0, h⟩) (ms0_0 ⟨0, h⟩) (hs0_0 ⟨0, h⟩) (ms0_1 ⟨0, h⟩) (hs0_1 ⟨0, h⟩)
        ((hcond0_0 ⟨0, h⟩).mpr rfl) (iblk m c 0 ⟨0, h⟩))) j).trans ?_
    refine (pay2_apply (iblk m c 0 ⟨0, h⟩) (k0_pay1 (F := Ideal)) j).trans ?_
    exact congrArg₂ (· + ·) (pay1_apply j) (congrArg (tv eps) (iblk_eq_tile m c ⟨0, h⟩))
  | n + 1, h, j => by
    have hN : n + 1 < 48 := lt_of_lt_of_eq h N_0
    have hB : ¬(⟨n + 1, h⟩ : Fin cfg0.N).val % 48 = 0 := by dsimp only; omega
    refine (congrFun ((outsAt0_B m c ⟨n + 1, h⟩ hB).trans
      (out_B (F := Ideal) c (grid0.coords ⟨n + 1, h⟩) (ms0_0 ⟨n + 1, h⟩) (hs0_0 ⟨n + 1, h⟩) (ms0_1 ⟨n + 1, h⟩) (hs0_1 ⟨n + 1, h⟩)
        (fun hh => hB ((hcond0_0 ⟨n + 1, h⟩).mp hh)) (iblk m c 0 ⟨n + 1, h⟩)
        (outsAt0 m c n (Nat.lt_of_succ_lt h)))) j).trans ?_
    refine (pay2_apply (iblk m c 0 ⟨n + 1, h⟩) (outsAt0 m c n (Nat.lt_of_succ_lt h)) j).trans ?_
    exact congrArg₂ (· + ·) (outsAt_eq c n (Nat.lt_of_succ_lt h) j) (congrArg (tv eps) (iblk_eq_tile m c ⟨n + 1, h⟩))

/-- The 1 × 1 array the region leaves: the stack's total variation. -/
abbrev result (c : Dev nD) : Buf (Elt Ideal) ((c : Thread nD τ).loc main_v1) := fun _ => tv eps (stack m c)

/-- The one write-back, after the last step, writes it. -/
theorem flushed_eq (c : Dev nD) (t : Fin cfg0.N) (hf : (cfg0.win 1).flush t = true) :
    (dats m 0 c).flushed 1 t = ((cfg0.win 1).blk t).view.read (Elt Ideal) (result m c) := by
  have hN : t.val < 48 := lt_of_lt_of_eq t.isLt N_0
  have h47 : t.val = 47 := by have := (flush0_1 t).mp hf; omega
  funext y
  rw [View.read_apply]
  show (dats m 0 c).after 1 t _ = tv eps (stack m c)
  rw [after0_1]
  obtain ⟨n, hn⟩ := t
  dsimp only at h47
  subst h47
  rw [outsAt_eq m c 47 hn]
  exact running_last eps (stack m c)

/-- The last grid point. -/
abbrev tLast : Fin cfg0.N := ⟨47, lt_of_lt_of_eq (by omega : 47 < 48) N_0.symm⟩

/-- The output window's block never moves and is the whole 1 × 1 array. -/
theorem index1 : ∀ t : Fin cfg0.N, (∀ a, win0_1.index t a * win0_1.size a = 0) ∧ (∀ a, win0_1.xsize (grid0.coords t) a = 1) :=
  (by decide +kernel : ∀ t : Fin grid0.N, (∀ a, win0_1.index t a * win0_1.size a = 0) ∧ (∀ a, win0_1.xsize (grid0.coords t) a = 1))

/-- So the 1 × 1 array ends holding the stack's total variation. -/
theorem final_o (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index tLast 0 * win0_1.size 0 ≤ (i 0 : Nat) ∧ (i 0 : Nat) < win0_1.index tLast 0 * win0_1.size 0 + win0_1.xsize (grid0.coords tLast) 0
        rw [(index1 tLast).1 0, (index1 tLast).2 0]; omega
      | ⟨1, _⟩ =>
        show win0_1.index tLast 1 * win0_1.size 1 ≤ (i 1 : Nat) ∧ (i 1 : Nat) < win0_1.index tLast 1 * win0_1.size 1 + win0_1.xsize (grid0.coords tLast) 1
        rw [(index1 tLast).1 1, (index1 tLast).2 1]; omega⟩

/-- The idealized kernel's result: the stack's total variation, read as a scalar and divided by the host. -/
abbrev kernelResult (c : Dev nD) : Buf (Elt Ideal) ((c : Thread nD τ).loc main_v3) :=
  Host.divf (F := Ideal) (shapeCast S_ (result m c) shapeCasts_S1x1_S_) (constant S_ .f32 0x4C400000#32)

/-- The host lines after the region compute it from the 1 × 1 array. -/
theorem tail_eq (c : Dev nD) :
    Pipeline.afterTail₀ cfgs (dats m) 0 (V0 m) [hostOps1] c main_v3 = kernelResult m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = result m c :=
    (Pipeline.withArrays_arr spec0 launch0.win.arr_inj c _ _ 1).trans (final_o m c)
  rw [e]
  rfl

/-- The idealized kernel's run: every weakly fair execution ends with the result at `kernelResult` and the argument
    unchanged. -/
theorem run : θ_run defs (onTc (τ := τ) (main (F := Ideal))) ⟨m, fun _ => 0, ρ⟩ fun r => ∀ c : Dev nD,
      r.2.mem ((c.tc : Thread nD τ).loc main_v3) = kernelResult m c
      ∧ r.2.mem ((c.tc : Thread nD τ).loc main_arg0) = m ((c.tc : Thread nD τ).loc main_arg0) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c)⟩)
    (run_main m ρ)

end Cert.KernelIdeal.Total

end
-- ==== Proof.ReferenceTotal.lean ====
/-
  The idealized reference's result as one function of its argument.

  The reference sums `|x[…, w + 1] - x[…, w] + ε|` over every index of the [32, 8, 3, 256, 255] array of horizontal
  differences and `|x[…, h + 1, w] - x[…, h, w] + ε|` over the [32, 8, 3, 255, 256] array of vertical ones, adds the
  two totals and divides. Numbering the 32 · 8 · 3 leading indices in row-major order as 768 images turns each total
  into the sum over images, rows and columns of the re-laid stack: the stack's total variation.
-/
import proofs.«112453_j53498112639571_2_alg».proof.Proof.Gen.ReferenceIdeal.Read
import proofs.«112453_j53498112639571_2_alg».proof.Proof.TotalVariation
import Idealize.ShloMosaic.PureOps.Ideal.Laws
import Idealize.ShloMosaic.Lib.Pipeline.Value
import Idealize.ShloMosaic.Lib.ValueIdx

noncomputable section

open scoped BigOperators

namespace Cert.ReferenceIdeal.Total

open Cert.ReferenceIdeal Cert.ReferenceIdeal.Gen Cert.ReferenceIdeal.Read Idealize.ShloMosaic Idealize.ShloMosaic.ValueIdx Cert.TV

/-- The constant added to every difference. -/
abbrev eps : EReal := Ideal.ofBits .f32 0x358637BD#32

abbrev S768x256x256 : Shape := ⟨3, ![768, 256, 256]⟩
abbrev S768x256x255 : Shape := ⟨3, ![768, 256, 255]⟩
abbrev S768x255x256 : Shape := ⟨3, ![768, 255, 256]⟩

theorem numelH : S768x256x255.numel = S32x8x3x256x255.numel := by decide
theorem numelW : S768x255x256.numel = S32x8x3x255x256.numel := by decide

/-- One horizontal term of the reference, at the index with the row-major position of `(l, h, w)`, is the
    stack's horizontal term at `(l, h, w)`. -/
theorem v10_at (x0 : S32x8x3x256x256.Idx → EReal) (hc : S32x8x3x256x256.ShapeCasts S768x256x256)
    (l : Fin 768) (h : Fin 256) (w : Fin 255) :
    val_main_v10 (F := Ideal) x0 (Shape.reshapeEquiv numelH (ix3 l h w)) = dLast eps (shapeCast S768x256x256 x0 hc) l h w := by
  have hJ := Shape.rowMajor_reshapeEquiv numelH (ix3 l h w)
  generalize Shape.reshapeEquiv numelH (ix3 l h w) = J at hJ ⊢
  rw [Shape.rowMajor_val_five, Shape.rowMajor_val_three] at hJ
  replace hJ : ((((J 0).val * 8 + (J 1).val) * 3 + (J 2).val) * 256 + (J 3).val) * 255 + (J 4).val
      = (l.val * 256 + h.val) * 255 + w.val := hJ
  have b3 : (J 3).val < 256 := (J 3).isLt
  have b4 : (J 4).val < 255 := (J 4).isLt
  have e1 := shapeCast_apply x0 hc (ix3 l h ⟨w.val + 1, by omega⟩) (idx_main_v0 J) (by
    rw [Shape.rowMajor_val_five, Shape.rowMajor_val_three]
    show ((((J 0).val * 8 + (J 1).val) * 3 + (J 2).val) * 256 + (J 3).val) * 256 + (1 + (J 4).val)
      = (l.val * 256 + h.val) * 256 + (w.val + 1)
    omega)
  have e0 := shapeCast_apply x0 hc (ix3 l h ⟨w.val, by omega⟩) (idx_main_v1 J) (by
    rw [Shape.rowMajor_val_five, Shape.rowMajor_val_three]
    show ((((J 0).val * 8 + (J 1).val) * 3 + (J 2).val) * 256 + (J 3).val) * 256 + (J 4).val
      = (l.val * 256 + h.val) * 256 + w.val
    omega)
  rw [val_main_v10_apply, val_main_v4_apply, val_main_v2_apply, val_main_v0_apply, val_main_v1_apply,
    val_main_v3_apply, val_main_cst_apply]
  unfold dLast eabs
  rw [e1, e0]
  rfl

/-- One vertical term of the reference likewise. -/
theorem v12_at (x0 : S32x8x3x256x256.Idx → EReal) (hc : S32x8x3x256x256.ShapeCasts S768x256x256)
    (l : Fin 768) (h : Fin 255) (w : Fin 256) :
    val_main_v12 (F := Ideal) x0 (Shape.reshapeEquiv numelW (ix3 l h w)) = dMid eps (shapeCast S768x256x256 x0 hc) l h w := by
  have hJ := Shape.rowMajor_reshapeEquiv numelW (ix3 l h w)
  generalize Shape.reshapeEquiv numelW (ix3 l h w) = J at hJ ⊢
  rw [Shape.rowMajor_val_five, Shape.rowMajor_val_three] at hJ
  replace hJ : ((((J 0).val * 8 + (J 1).val) * 3 + (J 2).val) * 255 + (J 3).val) * 256 + (J 4).val
      = (l.val * 255 + h.val) * 256 + w.val := hJ
  have b3 : (J 3).val < 255 := (J 3).isLt
  have b4 : (J 4).val < 256 := (J 4).isLt
  have e1 := shapeCast_apply x0 hc (ix3 l ⟨h.val + 1, by omega⟩ w) (idx_main_v5 J) (by
    rw [Shape.rowMajor_val_five, Shape.rowMajor_val_three]
    show ((((J 0).val * 8 + (J 1).val) * 3 + (J 2).val) * 256 + (1 + (J 3).val)) * 256 + (J 4).val
      = (l.val * 256 + (h.val + 1)) * 256 + w.val
    omega)
  have e0 := shapeCast_apply x0 hc (ix3 l ⟨h.val, by omega⟩ w) (idx_main_v6 J) (by
    rw [Shape.rowMajor_val_five, Shape.rowMajor_val_three]
    show ((((J 0).val * 8 + (J 1).val) * 3 + (J 2).val) * 256 + (J 3).val) * 256 + (J 4).val
      = (l.val * 256 + h.val) * 256 + w.val
    omega)
  rw [val_main_v12_apply, val_main_v9_apply, val_main_v7_apply, val_main_v5_apply, val_main_v6_apply,
    val_main_v8_apply, val_main_cst_0_apply]
  unfold dMid eabs
  rw [e1, e0]
  rfl

/-- The reference's sum of the two totals is the re-laid stack's total variation. -/
theorem v14_eq (x0 : S32x8x3x256x256.Idx → EReal) (hc : S32x8x3x256x256.ShapeCasts S768x256x256) (i : S_.Idx) :
    val_main_v14 (F := Ideal) x0 i = tv eps (shapeCast S768x256x256 x0 hc) := by
  rw [val_main_v14_apply, val_main_v11_apply, val_main_v13_apply, val_main_cst_1_apply, val_main_cst_2_apply]
  unfold tv
  show (Ideal.ofBits .f32 0x00000000#32 + _) + (Ideal.ofBits .f32 0x00000000#32 + _) = _
  rw [Ideal.ofBits_zero_f32, zero_add, zero_add,
    ← Equiv.sum_comp (Shape.reshapeEquiv numelH) (val_main_v10 (F := Ideal) x0),
    ← Equiv.sum_comp (Shape.reshapeEquiv numelW) (val_main_v12 (F := Ideal) x0), sum_idx3, sum_idx3]
  refine congrArg₂ (· + ·) ?_ ?_
  · exact Finset.sum_congr rfl fun l _ => Finset.sum_congr rfl fun h _ => Finset.sum_congr rfl fun w _ => v10_at x0 hc l h w
  · exact Finset.sum_congr rfl fun l _ => Finset.sum_congr rfl fun h _ => Finset.sum_congr rfl fun w _ => v12_at x0 hc l h w

/-- The reference's result: the re-laid stack's total variation, divided by the host. -/
theorem v15_eq (x0 : S32x8x3x256x256.Idx → EReal) (hc : S32x8x3x256x256.ShapeCasts S768x256x256) :
    val_main_v15 (F := Ideal) x0
      = Host.divf (F := Ideal) (fun _ : S_.Idx => tv eps (shapeCast S768x256x256 x0 hc)) (constant S_ .f32 0x4C400000#32) := by
  funext i
  rw [val_main_v15_apply, v14_eq x0 hc i]
  rfl

end Cert.ReferenceIdeal.Total

end
-- ==== Proof.lean ====
/-
  The idealized kernel and the idealized reference compute the same number.

  The kernel re-lays its [32, 8, 3, 256, 256] argument as a stack of 768 images, walks over it in 48 groups of 16,
  adds each group's total variation (the sum of `|right neighbour - entry + ε|` and of `|lower neighbour - entry + ε|`)
  to a 1 × 1 accumulator that starts at zero, and after the last group divides the accumulator by the number of
  entries. The reference sums the same two kinds of terms over the whole five-axis array at once, adds the two totals
  and divides by the same number. Sums on the extended reals commute and associate, so grouping the terms by image
  group changes nothing; no entry needs to be finite for that. The two divisions are one function of equal arguments.

  The three runs (terminating, fault-free, arguments unchanged) are the generated frames of the two kernels and the
  generated run of the reference; the idealization rewrote nothing, so there is nothing to preserve.
-/
import proofs.«112453_j53498112639571_2_alg».proof.Defs
import proofs.«112453_j53498112639571_2_alg».proof.Proof.Gen.Kernel
import proofs.«112453_j53498112639571_2_alg».proof.Proof.Gen.Kernel.Skeleton
import proofs.«112453_j53498112639571_2_alg».proof.Proof.Gen.Kernel.Launch
import proofs.«112453_j53498112639571_2_alg».proof.Proof.Gen.Kernel.Points
import proofs.«112453_j53498112639571_2_alg».proof.Proof.Gen.Kernel.Frame
import proofs.«112453_j53498112639571_2_alg».proof.Proof.Gen.KernelIdeal
import proofs.«112453_j53498112639571_2_alg».proof.Proof.Gen.KernelIdeal.Skeleton
import proofs.«112453_j53498112639571_2_alg».proof.Proof.Gen.KernelIdeal.Launch
import proofs.«112453_j53498112639571_2_alg».proof.Proof.Gen.KernelIdeal.Points
import proofs.«112453_j53498112639571_2_alg».proof.Proof.Gen.KernelIdeal.Frame
import proofs.«112453_j53498112639571_2_alg».proof.Proof.Gen.ReferenceIdeal
import proofs.«112453_j53498112639571_2_alg».proof.Proof.Gen.Pre_finite_inputs
import proofs.«112453_j53498112639571_2_alg».proof.Proof.Gen.ReferenceIdeal.Run
import proofs.«112453_j53498112639571_2_alg».proof.Proof.Gen.ReferenceIdeal.Read
import proofs.«112453_j53498112639571_2_alg».proof.Proof.KernelTotal
import proofs.«112453_j53498112639571_2_alg».proof.Proof.ReferenceTotal
import Idealize.ShloMosaic.Adequacy
import Idealize.ShloMosaic.Init

noncomputable section

namespace Cert.Proof

open Idealize.ShloMosaic Idealize.ShloMosaic.TcCoe Idealize.SL.Sem

/-- Both idealized programs end with the re-laid stack's total variation divided by the number of entries. -/
theorem algebraic : Cert.algebraic_KernelIdeal_ReferenceIdeal := by
  intro m ρ m' ρ' _ hagree
  refine ⟨fun c => Cert.KernelIdeal.Total.kernelResult m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c,
    Cert.ReferenceIdeal.Total.v15_eq _ Cert.KernelIdeal.Gen.shapeCasts_S32x8x3x256x256_S768x256x256]
  show _ = Cert.KernelIdeal.Total.kernelResult m c
  unfold Cert.KernelIdeal.Total.kernelResult Cert.KernelIdeal.Total.result
  rw [Cert.KernelIdeal.Total.stack_eq m c]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
